-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x1x512 : Shape := ⟨4, ![8, 256, 1, 512]⟩
abbrev S8x1x64x512 : Shape := ⟨4, ![8, 1, 64, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S8x256x1x512 : S_.BroadcastsInDim S8x256x1x512 (![] : Fin 0 → Fin S8x256x1x512.rank)
  reducesTo_S8x256x1x512_S_d0_1_2_3 : S8x256x1x512.ReducesTo [0, 1, 2, 3] S_
  h_S_ : 0 < S_.numel
  bcast_S_S8x1x64x512 : S_.BroadcastsInDim S8x1x64x512 (![] : Fin 0 → Fin S8x1x64x512.rank)
  reducesTo_S8x1x64x512_S_d0_1_2_3 : S8x1x64x512.ReducesTo [0, 1, 2, 3] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S512x512 .f32) (main_arg5 : FVec F S1024x512 .f32) (main_arg6 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x256x1x512 .f32) (main_arg1 : FVec F S8x1x64x512 .f32) (main_arg2 : FVec F S512x512 .f32) (main_arg3 : FVec F S512 .f32) (main_arg4 : FVec F S512x512 .f32) (main_arg5 : FVec F S1024x512 .f32) (main_arg6 : FVec F S1024 .f32) : IVec S_ 1 :=
  let main_v0 : FVec F S8x256x1x512 .f32 := Host.absf main_arg0
  let main_cst : FVec F S_ .f32 := constant S_ .f32 0x7F800000#32
  let main_v1 : FVec F S8x256x1x512 .f32 := broadcastInDim S8x256x1x512 ![] bcast_S_S8x256x1x512 main_cst
  let main_v2 : IVec S8x256x1x512 1 := cmpf .olt main_v0 main_v1
  let main_c : IVec S_ 1 := constantI S_ 1 1#1
  let main_v3 : IVec S_ 1 := (fun x v => Host.reduce IntOp.andi x v reducesTo_S8x256x1x512_S_d0_1_2_3 h_S_) main_v2 main_c
  let main_v4 : FVec F S8x1x64x512 .f32 := Host.absf main_arg1
  let main_cst_0 : FVec F S_ .f32 := constant S_ .f32 0x7F800000#32
  let main_v5 : FVec F S8x1x64x512 .f32 := broadcastInDim S8x1x64x512 ![] bcast_S_S8x1x64x512 main_cst_0
  let main_v6 : IVec S8x1x64x512 1 := cmpf .olt main_v4 main_v5
  let main_c_1 : IVec S_ 1 := constantI S_ 1 1#1
  let main_v7 : IVec S_ 1 := (fun x v => Host.reduce IntOp.andi x v reducesTo_S8x1x64x512_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S8x256x1x512 : Shape := ⟨4, ![8, 256, 1, 512]⟩
abbrev S8x1x64x512 : Shape := ⟨4, ![8, 1, 64, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S8x256x64x1024 : Shape := ⟨4, ![8, 256, 64, 1024]⟩
abbrev S1x16x1x512 : Shape := ⟨4, ![1, 16, 1, 512]⟩
abbrev S1x1x64x512 : Shape := ⟨4, ![1, 1, 64, 512]⟩
abbrev S1x16x64x1024 : Shape := ⟨4, ![1, 16, 64, 1024]⟩
abbrev S16x512 : Shape := ⟨2, ![16, 512]⟩
abbrev S64x512 : Shape := ⟨2, ![64, 512]⟩
abbrev S1x512 : Shape := ⟨2, ![1, 512]⟩
abbrev S16x1x512 : Shape := ⟨3, ![16, 1, 512]⟩
abbrev S1x64x512 : Shape := ⟨3, ![1, 64, 512]⟩
abbrev S16x64x512 : Shape := ⟨3, ![16, 64, 512]⟩
abbrev S1024x1024 : Shape := ⟨2, ![1024, 1024]⟩
abbrev S16x64x1024 : Shape := ⟨3, ![16, 64, 1024]⟩
abbrev S1x1x1024 : Shape := ⟨3, ![1, 1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S8x256x1x512, .f32⟩
  | .hbm, ⟨1, _⟩ => ⟨S8x1x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S1024x512, .f32⟩
  | .hbm, ⟨6, _⟩ => ⟨S1024, .f32⟩
  | .hbm, ⟨7, _⟩ => ⟨S512x512, .f32⟩
  | .hbm, ⟨8, _⟩ => ⟨S512x512, .f32⟩
  | .hbm, ⟨9, _⟩ => ⟨S512x1024, .f32⟩
  | .hbm, ⟨10, _⟩ => ⟨S8x256x64x1024, .f32⟩
  | .local _ .vmem, ⟨0, _⟩ => ⟨S1x16x1x512, .f32⟩
  | .local _ .vmem, ⟨1, _⟩ => ⟨S1x16x1x512, .f32⟩
  | .local _ .vmem, ⟨2, _⟩ => ⟨S1x1x64x512, .f32⟩
  | .local _ .vmem, ⟨3, _⟩ => ⟨S1x1x64x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512x1024, .f32⟩
  | .local _ .vmem, ⟨8, _⟩ => ⟨S1024, .f32⟩
  | .local _ .vmem, ⟨9, _⟩ => ⟨S1x16x64x1024, .f32⟩
  | .local _ .vmem, ⟨10, _⟩ => ⟨S1x16x64x1024, .f32⟩
  | _, _ => ⟨S8x256x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  transposes_S512x512_S512x512_1_0 : S512x512.Transposes [1, 0] S512x512
  transposes_S1024x512_S512x1024_1_0 : S1024x512.Transposes [1, 0] S512x1024
  inb_S1x16x1x512_S1x16x1x512_0_0_0_0 : ∀ a, (![0, 0, 0, 0] : Fin 4 → Nat) a + S1x16x1x512.size a ≤ S1x16x1x512.size a
  h_S1x16x1x512 : 0 < S1x16x1x512.numel
  shapeCasts_S1x16x1x512_S16x512 : S1x16x1x512.ShapeCasts S16x512
  bitsLt_bf16_f32 : FTy.bits .bf16 < FTy.bits .f32
  inb_S1x1x64x512_S1x1x64x512_0_0_0_0 : ∀ a, (![0, 0, 0, 0] : Fin 4 → Nat) a + S1x1x64x512.size a ≤ S1x1x64x512.size a
  h_S1x1x64x512 : 0 < S1x1x64x512.numel
  shapeCasts_S1x1x64x512_S64x512 : S1x1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512_S512_0 : ∀ a, (![0] : Fin 1 → Nat) a + S512.size a ≤ S512.size a
  h_S512 : 0 < S512.numel
  inb_S1024_S1024_0 : ∀ a, (![0] : Fin 1 → Nat) a + S1024.size a ≤ S1024.size a
  h_S1024 : 0 < S1024.numel
  shapeCasts_S512_S1x512 : S512.ShapeCasts S1x512
  broadcasts_S1x512_S16x512 : S1x512.Broadcasts S16x512
  shapeCasts_S16x512_S16x1x512 : S16x512.ShapeCasts S16x1x512
  shapeCasts_S64x512_S1x64x512 : S64x512.ShapeCasts S1x64x512
  broadcasts_S16x1x512_S16x64x512 : S16x1x512.Broadcasts S16x64x512
  broadcasts_S1x64x512_S16x64x512 : S1x64x512.Broadcasts S16x64x512
  shapeCasts_S16x64x512_S1024x512 : S16x64x512.ShapeCasts S1024x512
  shapeCasts_S1024x1024_S16x64x1024 : S1024x1024.ShapeCasts S16x64x1024
  shapeCasts_S1024_S1x1x1024 : S1024.ShapeCasts S1x1x1024
  broadcasts_S1x1x1024_S16x64x1024 : S1x1x1024.Broadcasts S16x64x1024
  shapeCasts_S16x64x1024_S1x16x64x1024 : S16x64x1024.ShapeCasts S1x16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  dot_S16x512_S512x512_S16x512_1_0_0_1_n_n_wf : DotDims.WF S16x512 S512x512 S16x512 [1] [0] [0] [1] [] []
  dot_S64x512_S512x512_S64x512_1_0_0_1_n_n_wf : DotDims.WF S64x512 S512x512 S64x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1x512.size a ≤ S8x256x1x512.size a
  hwx0_0 : ∀ i : grid0.Coords, EltTy.bits .f32 = 32 ∨ (Rect.block (s := S8x256x1x512) S1x16x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x512.size a ≤ S8x1x64x512.size a
  hwx0_1 : ∀ i : grid0.Coords, EltTy.bits .f32 = 32 ∨ (Rect.block (s := S8x1x64x512) S1x1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .f32 = 32 ∨ (Rect.block (s := S512x1024) S512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x1024.size a ≤ S8x256x64x1024.size a
  hwx0_7 : ∀ i : grid0.Coords, EltTy.bits .f32 = 32 ∨ (Rect.block (s := S8x256x64x1024) S1x16x64x1024.size (cc0_transform_7 i) (hinb0_7 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x16x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x16x64x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x1x512 : Shape := ⟨4, ![8, 256, 1, 512]⟩
abbrev S8x1x64x512 : Shape := ⟨4, ![8, 1, 64, 512]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S1x1x1x512 : Shape := ⟨4, ![1, 1, 1, 512]⟩
abbrev S8x256x64x512 : Shape := ⟨4, ![8, 256, 64, 512]⟩
abbrev S8x256x64x1024 : Shape := ⟨4, ![8, 256, 64, 1024]⟩
abbrev S1x1x1x1024 : Shape := ⟨4, ![1, 1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x256x1x512, .f32⟩
  | .hbm, ⟨1, _⟩ => ⟨S8x1x64x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S1024x512, .f32⟩
  | .hbm, ⟨6, _⟩ => ⟨S1024, .f32⟩
  | .hbm, ⟨7, _⟩ => ⟨S8x256x1x512, .f32⟩
  | .hbm, ⟨8, _⟩ => ⟨S1x1x1x512, .f32⟩
  | .hbm, ⟨9, _⟩ => ⟨S8x256x1x512, .f32⟩
  | .hbm, ⟨10, _⟩ => ⟨S8x256x1x512, .f32⟩
  | .hbm, ⟨11, _⟩ => ⟨S8x1x64x512, .f32⟩
  | .hbm, ⟨12, _⟩ => ⟨S8x256x64x512, .f32⟩
  | .hbm, ⟨13, _⟩ => ⟨S8x256x64x512, .f32⟩
  | .hbm, ⟨14, _⟩ => ⟨S8x256x64x512, .f32⟩
  | .hbm, ⟨15, _⟩ => ⟨S8x256x64x512, .f32⟩
  | .hbm, ⟨16, _⟩ => ⟨S8x256x64x1024, .f32⟩
  | .hbm, ⟨17, _⟩ => ⟨S1x1x1x1024, .f32⟩
  | .hbm, ⟨18, _⟩ => ⟨S8x256x64x1024, .f32⟩
  | .hbm, ⟨19, _⟩ => ⟨S8x256x64x1024, .f32⟩
  | _, _ => ⟨S8x256x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S512_S1x1x1x512_3 : S512.BroadcastsInDim S1x1x1x512 (![3] : Fin 1 → Fin S1x1x1x512.rank)
  bcast_S1x1x1x512_S8x256x1x512_0_1_2_3 : S1x1x1x512.BroadcastsInDim S8x256x1x512 (![0, 1, 2, 3] : Fin 4 → Fin S8x256x1x512.rank)
  bcast_S8x256x1x512_S8x256x64x512_0_1_2_3 : S8x256x1x512.BroadcastsInDim S8x256x64x512 (![0, 1, 2, 3] : Fin 4 → Fin S8x256x64x512.rank)
  bcast_S8x1x64x512_S8x256x64x512_0_1_2_3 : S8x1x64x512.BroadcastsInDim S8x256x64x512 (![0, 1, 2, 3] : Fin 4 → Fin S8x256x64x512.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x1x512_S512x512_S8x256x1x512_3_1_012_0_n_n_wf : DotDims.WF S8x256x1x512 S512x512 S8x256x1x512 [3] [1] [0, 1, 2] [0] [] []
  dot_S8x1x64x512_S512x512_S8x1x64x512_3_1_012_0_n_n_wf : DotDims.WF S8x1x64x512 S512x512 S8x1x64x512 [3] [1] [0, 1, 2] [0] [] []
  dot_S8x256x64x512_S1024x512_S8x256x64x1024_3_1_012_0_n_n_wf : DotDims.WF S8x256x64x512 S1024x512 S8x256x64x1024 [3] [1] [0, 1, 2] [0] [] []

variable [Facts₀]

def dot_S8x256x1x512_S512x512_S8x256x1x512_3_1_012_0_n_n : DotDims S8x256x1x512 S512x512 S8x256x1x512 where
  lhsContracting := [3]
  rhsContracting := [1]
  lhsNonContracting := [0, 1, 2]
  rhsNonContracting := [0]
  lhsBatch := []
  rhsBatch := []
  wf := dot_S8x256x1x512_S512x512_S8x256x1x512_3_1_012_0_n_n_wf
def dot_S8x1x64x512_S512x512_S8x1x64x512_3_1_012_0_n_n : DotDims S8x1x64x512 S512x512 S8x1x64x512 where
  lhsContracting := [3]
  rhsContracting := [1]
  lhsNonContracting := [0, 1, 2]
  rhsNonContracting := [0]
  lhsBatch := []
  rhsBatch := []
  wf := dot_S8x1x64x512_S512x512_S8x1x64x512_3_1_012_0_n_n_wf
def dot_S8x256x64x512_S1024x512_S8x256x64x1024_3_1_012_0_n_n : DotDims S8x256x64x512 S1024x512 S8x256x64x1024 where
  lhsContracting := [3]
  rhsContracting := [1]
  lhsNonContracting := [0, 1, 2]
  rhsNonContracting := [0]
  lhsBatch := []
  rhsBatch := []
  wf := dot_S8x256x64x512_S1024x512_S8x256x64x1024_3_1_012_0_n_n_wf

class Facts : Prop extends Facts₀ where

variable [Facts]
-- ==== Proof.LibMidAxisLayout.lean ====
/-
  Layout operations of small ranks read at an index given by its coordinates, beyond the leading-unit-axis cases:
  a unit axis inserted in the MIDDLE of a matrix and broadcast over, two axes MERGED into one and split again, a vector
  lifted to two leading unit axes and broadcast over both, and the unit axes of a rank-4 block dropped.

  Each statement reads one `vector.shape_cast` or `vector.broadcast` at `ixN …` as its operand at `ixM …`; the sizes are
  arbitrary naturals. A shape cast preserves the row-major position, so each cast lemma is one equation between two
  row-major positions; a broadcast reads coordinate `0` on the operand's unit axes and the result's own coordinate on the others.
-/
import Idealize.ShloMosaic.Lib.Pipeline.Value
import Idealize.ShloMosaic.Lib.ValueIdx
import Idealize.ShloMosaic.Lib.ValueLayout

namespace Cert.LibMidAxisLayout

open Idealize.ShloMosaic Idealize.ShloMosaic.ValueIdx

variable {α : Type}

/-! ## A unit axis in the middle -/

/-- An `[a, c]` matrix cast to `[a, 1, c]` reads, at `(p, u, q)`, the operand at `(p, q)`: the position
    `(p · 1 + u) · c + q` with `u = 0` is `p · c + q`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- An `[a, 1, c]` array broadcast to `[a, b, c]` reads, at `(p, u, q)`, the operand at `(p, 0, q)`: the same
    row for every `u`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (u : Fin b) (q : Fin c) :
    broadcastTo ⟨3, ![a, b, c]⟩ x h (ix3 p u q) = x (ix3 p (0 : Fin 1) q) := by
  refine broadcastTo_apply x h (ix3 p u q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, c]` array broadcast to `[a, b, c]` reads, at `(p, u, q)`, the operand at `(0, u, q)`: the same
    matrix for every `p`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (u : Fin b) (q : Fin c) :
    broadcastTo ⟨3, ![a, b, c]⟩ x h (ix3 p u q) = x (ix3 (0 : Fin 1) u q) := by
  refine broadcastTo_apply x h (ix3 p u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-! ## Two axes merged into one, and split again -/

/-- An `[a, b, c]` array cast to `[m, c]` (so `m = a · b`) reads, at row `r = p · b + u` and column `q`, the
    operand at `(p, u, q)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (u : Fin b) (q : Fin c) (r : Fin m)
    (hr : r.val = p.val * b + u.val) :
    shapeCast ⟨2, ![m, c]⟩ x h (ix2 r q) = x (ix3 p u q) :=
  shapeCast_apply x h _ _ (by
    rw [Shape.rowMajor_val_three, Shape.rowMajor_val_two]
    show (p.val * b + u.val) * c + q.val = r.val * c + q.val
    rw [hr])

/-- An `[m, c]` matrix cast to `[a, b, c]` (so `m = a · b`) reads, at `(p, u, q)`, the operand at row
    `r = p · b + u` and column `q`. -/
theorem shapeCast_mc_abc_apply {a b c m : ℕ} (x : (⟨2, ![m, c]⟩ : Shape).Idx → α)
    (h : (⟨2, ![m, c]⟩ : Shape).ShapeCasts ⟨3, ![a, b, c]⟩) (p : Fin a) (u : Fin b) (q : Fin c) (r : Fin m)
    (hr : r.val = p.val * b + u.val) :
    shapeCast ⟨3, ![a, b, c]⟩ x h (ix3 p u q) = x (ix2 r q) :=
  shapeCast_apply x h _ _ (by
    rw [Shape.rowMajor_val_three, Shape.rowMajor_val_two]
    show r.val * c + q.val = (p.val * b + u.val) * c + q.val
    rw [hr])

/-! ## A vector under two leading unit axes -/

/-- An `[n]` vector cast to `[1, 1, n]` reads, at `(u, w, q)`, the operand at `q`. -/
theorem shapeCast_n_11n_apply {n : ℕ} (x : (⟨1, ![n]⟩ : Shape).Idx → α)
    (h : (⟨1, ![n]⟩ : Shape).ShapeCasts ⟨3, ![1, 1, n]⟩) (u w : Fin 1) (q : Fin n) :
    shapeCast ⟨3, ![1, 1, n]⟩ x h (ix3 u w q) = x (ix1 q) :=
  shapeCast_apply x h _ _ (by
    have hu : u.val = 0 := by omega
    have hw : w.val = 0 := by omega
    rw [Shape.rowMajor_val_three, Shape.rowMajor_val_one]
    show q.val = (u.val * 1 + w.val) * n + q.val
    rw [hu, hw]
    simp only [Nat.zero_mul, Nat.zero_add, Nat.mul_one, Nat.add_zero])

/-- A `[1, 1, n]` array broadcast to `[a, b, n]` reads, at `(p, u, q)`, the operand at `(0, 0, q)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (u : Fin b) (q : Fin n) :
    broadcastTo ⟨3, ![a, b, n]⟩ x h (ix3 p u q) = x (ix3 (0 : Fin 1) (0 : Fin 1) q) := by
  refine broadcastTo_apply x h (ix3 p u q) (ix3 (0 : Fin 1) (0 : Fin 1) q) fun ax => ?_
  match ax with
  | ⟨0, _⟩ => rfl
  | ⟨1, _⟩ => rfl
  | ⟨2, _⟩ =>
    show q.val = if n = 1 then 0 else q.val
    split
    · have := q.isLt; omega
    · rfl

/-! ## The unit axes of a rank-4 block dropped -/

/-- A `[1, a, 1, c]` block cast to `[a, c]` reads, at `(p, q)`, the operand at `(0, p, 0, q)`. -/
theorem shapeCast_1a1c_ac_apply {a c : ℕ} (x : (⟨4, ![1, a, 1, c]⟩ : Shape).Idx → α)
    (h : (⟨4, ![1, a, 1, c]⟩ : Shape).ShapeCasts ⟨2, ![a, c]⟩) (p : Fin a) (q : Fin c) :
    shapeCast ⟨2, ![a, c]⟩ x h (ix2 p q) = x (ix4 (0 : Fin 1) p (0 : Fin 1) q) :=
  shapeCast_apply x h _ _ (by
    rw [Shape.rowMajor_val_four, Shape.rowMajor_val_two]
    show ((0 * a + p.val) * 1 + 0) * c + q.val = p.val * c + q.val
    rw [Nat.zero_mul, Nat.zero_add, Nat.mul_one, Nat.add_zero])

/-- A `[1, 1, b, c]` block cast to `[b, c]` reads, at `(u, q)`, the operand at `(0, 0, u, q)`. -/
theorem shapeCast_11bc_bc_apply {b c : ℕ} (x : (⟨4, ![1, 1, b, c]⟩ : Shape).Idx → α)
    (h : (⟨4, ![1, 1, b, c]⟩ : Shape).ShapeCasts ⟨2, ![b, c]⟩) (u : Fin b) (q : Fin c) :
    shapeCast ⟨2, ![b, c]⟩ x h (ix2 u q) = x (ix4 (0 : Fin 1) (0 : Fin 1) u q) :=
  shapeCast_apply x h _ _ (by
    rw [Shape.rowMajor_val_four, Shape.rowMajor_val_two]
    show ((0 * 1 + 0) * b + u.val) * c + q.val = u.val * c + q.val
    simp only [Nat.zero_mul, Nat.zero_add, Nat.mul_one, Nat.add_zero])

end Cert.LibMidAxisLayout
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.Payload.lean ====
/-
  What the kernel body computes from its seven loaded blocks, entry by entry.

  The body receives a `[1, 16, 1, 512]` block of `h_enc` (sixteen encoder steps of one batch entry), the
  `[1, 1, 64, 512]` block of `h_dec` of that batch entry, and the whole of the transposed weights and the biases. It
  forms the encoder projection `e` (16 × 512, with bias) and the decoder projection `d` (64 × 512) as matrix products
  into a zero accumulator, inserts a unit axis in each and broadcasts both to 16 × 64 × 512, applies `tanh` to their
  sum, merges the first two axes to multiply the 1024 × 512 result with the 512 × 1024 output weight, splits the rows
  again, adds the output bias and stores the `[1, 16, 64, 1024]` block. The roundings to bf16 are the identity on the
  extended reals. The body is cut here into its four stages, each read at an entry given by its coordinates; the
  stages composed are the generated payload by unfolding.
-/
import proofs.«172659_j2052994367587_1_alg».proof.Proof.Gen.KernelIdeal.Skeleton
import proofs.«172659_j2052994367587_1_alg».proof.Proof.LibMidAxisLayout
import proofs.«172659_j2052994367587_1_alg».proof.Proof.LibPlainMatmul
import Idealize.ShloMosaic.Lib.ValueLayout

noncomputable section

open scoped BigOperators

namespace Cert.KernelIdeal.Body

open Cert.KernelIdeal Cert.KernelIdeal.Gen Idealize.ShloMosaic Idealize.ShloMosaic.ValueIdx
open Cert.LibMidAxisLayout Cert.LibPlainMatmul

/-! ## The encoder projection of the block -/

/-- `e = x · W + bias`: the block's sixteen rows against the transposed encoder weight, the bias on every row. -/
def encBlk (x0 : FVec Ideal S1x16x1x512 .f32) (w : FVec Ideal S512x512 .f32) (bias : FVec Ideal S512 .f32) :
    FVec Ideal S16x512 .f32 :=
  addf (matmul dot_S16x512_S512x512_S16x512_1_0_0_1_n_n none
      (truncf .bf16 (shapeCast S16x512 x0 shapeCasts_S1x16x1x512_S16x512) bitsLt_bf16_f32)
      (truncf .bf16 (shapeCast S512x512 w shapeCasts_S512x512_S512x512) bitsLt_bf16_f32)
      (constant S16x512 .f32 0x00000000#32))
    (broadcastTo S16x512 (shapeCast S1x512 bias shapeCasts_S512_S1x512) broadcasts_S1x512_S16x512)

theorem encBlk_apply (x0 : FVec Ideal S1x16x1x512 .f32) (w : FVec Ideal S512x512 .f32) (bias : FVec Ideal S512 .f32)
    (p : Fin 16) (j : Fin 512) :
    encBlk x0 w bias (ix2 p j)
      = (∑ d : Fin 512, x0 (ix4 (0 : Fin 1) p (0 : Fin 1) d) * w (ix2 d j)) + bias (ix1 j) := by
  unfold encBlk
  refine congrArg₂ (· + ·) ?_ ?_
  · refine (matmul_plain_zero_apply dot_S16x512_S512x512_S16x512_1_0_0_1_n_n rfl none _ _ p j).trans ?_
    refine Finset.sum_congr rfl fun d _ => congrArg₂ (· * ·) ?_ ?_
    · exact shapeCast_1a1c_ac_apply x0 shapeCasts_S1x16x1x512_S16x512 p d
    · exact congrFun (shapeCast_self w shapeCasts_S512x512_S512x512) (ix2 d j)
  · exact (broadcastTo_1b_ab_apply _ broadcasts_S1x512_S16x512 p j).trans
      (shapeCast_a_1a_apply bias shapeCasts_S512_S1x512 (0 : Fin 1) j)

/-! ## The decoder projection of the block -/

/-- `d = y · W`: the block's sixty-four rows against the transposed decoder weight. -/
def decBlk (x1 : FVec Ideal S1x1x64x512 .f32) (w : FVec Ideal S512x512 .f32) : FVec Ideal S64x512 .f32 :=
  matmul dot_S64x512_S512x512_S64x512_1_0_0_1_n_n none
    (truncf .bf16 (shapeCast S64x512 x1 shapeCasts_S1x1x64x512_S64x512) bitsLt_bf16_f32)
    (truncf .bf16 (shapeCast S512x512 w shapeCasts_S512x512_S512x512) bitsLt_bf16_f32)
    (constant S64x512 .f32 0x00000000#32)

theorem decBlk_apply (x1 : FVec Ideal S1x1x64x512 .f32) (w : FVec Ideal S512x512 .f32) (u : Fin 64) (j : Fin 512) :
    decBlk x1 w (ix2 u j) = ∑ d : Fin 512, x1 (ix4 (0 : Fin 1) (0 : Fin 1) u d) * w (ix2 d j) := by
  unfold decBlk
  refine (matmul_plain_zero_apply dot_S64x512_S512x512_S64x512_1_0_0_1_n_n rfl none _ _ u j).trans ?_
  refine Finset.sum_congr rfl fun d _ => congrArg₂ (· * ·) ?_ ?_
  · exact shapeCast_11bc_bc_apply x1 shapeCasts_S1x1x64x512_S64x512 u d
  · exact congrFun (shapeCast_self w shapeCasts_S512x512_S512x512) (ix2 d j)

/-! ## The hidden activation -/

/-- `z (p, u, j) = tanh (e (p, j) + d (u, j))`: each projection gets a unit axis and is broadcast over the other's rows. -/
def hidBlk (e : FVec Ideal S16x512 .f32) (d : FVec Ideal S64x512 .f32) : FVec Ideal S16x64x512 .f32 :=
  tanh (addf
    (broadcastTo S16x64x512 (shapeCast S16x1x512 e shapeCasts_S16x512_S16x1x512) broadcasts_S16x1x512_S16x64x512)
    (broadcastTo S16x64x512 (shapeCast S1x64x512 d shapeCasts_S64x512_S1x64x512) broadcasts_S1x64x512_S16x64x512))

theorem hidBlk_apply (e : FVec Ideal S16x512 .f32) (d : FVec Ideal S64x512 .f32) (p : Fin 16) (u : Fin 64) (j : Fin 512) :
    hidBlk e d (ix3 p u j) = Ideal.tanh (e (ix2 p j) + d (ix2 u j)) := by
  unfold hidBlk
  refine congrArg Ideal.tanh (congrArg₂ (· + ·) ?_ ?_)
  · exact (broadcastTo_a1c_abc_apply _ broadcasts_S16x1x512_S16x64x512 p u j).trans
      (shapeCast_ac_a1c_apply e shapeCasts_S16x512_S16x1x512 p (0 : Fin 1) j)
  · exact (broadcastTo_1bc_abc_apply _ broadcasts_S1x64x512_S16x64x512 p u j).trans
      (shapeCast_ab_1ab_apply d shapeCasts_S64x512_S1x64x512 (0 : Fin 1) u j)

/-! ## The output projection of the block -/

/-- `o (0, p, u, v) = (∑ j, z (p, u, j) · W (j, v)) + bias v`: the rows `(p, u)` merged to `64 p + u` for the product and
    split again after it. -/
def outBlk (z : FVec Ideal S16x64x512 .f32) (w : FVec Ideal S512x1024 .f32) (bias : FVec Ideal S1024 .f32) :
    FVec Ideal S1x16x64x1024 .f32 :=
  shapeCast S1x16x64x1024
    (addf
      (shapeCast S16x64x1024
        (matmul dot_S1024x512_S512x1024_S1024x1024_1_0_0_1_n_n none
          (shapeCast S1024x512 (truncf .bf16 z bitsLt_bf16_f32) shapeCasts_S16x64x512_S1024x512)
          (truncf .bf16 (shapeCast S512x1024 w shapeCasts_S512x1024_S512x1024) bitsLt_bf16_f32)
          (constant S1024x1024 .f32 0x00000000#32))
        shapeCasts_S1024x1024_S16x64x1024)
      (broadcastTo S16x64x1024 (shapeCast S1x1x1024 bias shapeCasts_S1024_S1x1x1024) broadcasts_S1x1x1024_S16x64x1024))
    shapeCasts_S16x64x1024_S1x16x64x1024

theorem outBlk_apply (z : FVec Ideal S16x64x512 .f32) (w : FVec Ideal S512x1024 .f32) (bias : FVec Ideal S1024 .f32)
    (p : Fin 16) (u : Fin 64) (v : Fin 1024) :
    outBlk z w bias (ix4 (0 : Fin 1) p u v) = (∑ j : Fin 512, z (ix3 p u j) * w (ix2 j v)) + bias (ix1 v) := by
  have hr : p.val * 64 + u.val < 1024 := by have := p.isLt; have := u.isLt; omega
  unfold outBlk
  refine (shapeCast_abc_1abc_apply _ shapeCasts_S16x64x1024_S1x16x64x1024 (0 : Fin 1) p u v).trans ?_
  refine congrArg₂ (· + ·) ?_ ?_
  · refine (shapeCast_mc_abc_apply _ shapeCasts_S1024x1024_S16x64x1024 p u v ⟨p.val * 64 + u.val, hr⟩ rfl).trans ?_
    refine (matmul_plain_zero_apply dot_S1024x512_S512x1024_S1024x1024_1_0_0_1_n_n rfl none _ _
      ⟨p.val * 64 + u.val, hr⟩ v).trans ?_
    refine Finset.sum_congr rfl fun j _ => congrArg₂ (· * ·) ?_ ?_
    · exact shapeCast_abc_mc_apply (truncf .bf16 z bitsLt_bf16_f32) shapeCasts_S16x64x512_S1024x512 p u j
        ⟨p.val * 64 + u.val, hr⟩ rfl
    · exact congrFun (shapeCast_self w shapeCasts_S512x1024_S512x1024) (ix2 j v)
  · exact (broadcastTo_11n_abn_apply _ broadcasts_S1x1x1024_S16x64x1024 p u v).trans
      (shapeCast_n_11n_apply bias shapeCasts_S1024_S1x1x1024 (0 : Fin 1) (0 : Fin 1) v)

/-! ## The body's payload is the four stages composed -/

theorem pay_eq (x0 : FVec Ideal S1x16x1x512 .f32) (x1 : FVec Ideal S1x1x64x512 .f32) (wE : FVec Ideal S512x512 .f32)
    (wD : FVec Ideal S512x512 .f32) (wO : FVec Ideal S512x1024 .f32) (bE : FVec Ideal S512 .f32) (bO : FVec Ideal S1024 .f32) :
    k0_pay1 (F := Ideal) x0 x1 wE wD wO bE bO = outBlk (hidBlk (encBlk x0 wE bE) (decBlk x1 wD)) wO bO := rfl

/-- The payload at the block entry `(0, p, u, v)`. -/
theorem pay_apply (x0 : FVec Ideal S1x16x1x512 .f32) (x1 : FVec Ideal S1x1x64x512 .f32) (wE : FVec Ideal S512x512 .f32)
    (wD : FVec Ideal S512x512 .f32) (wO : FVec Ideal S512x1024 .f32) (bE : FVec Ideal S512 .f32) (bO : FVec Ideal S1024 .f32)
    (p : Fin 16) (u : Fin 64) (v : Fin 1024) :
    k0_pay1 (F := Ideal) x0 x1 wE wD wO bE bO (ix4 (0 : Fin 1) p u v)
      = (∑ j : Fin 512,
          Ideal.tanh (((∑ d : Fin 512, x0 (ix4 (0 : Fin 1) p (0 : Fin 1) d) * wE (ix2 d j)) + bE (ix1 j))
            + ∑ d : Fin 512, x1 (ix4 (0 : Fin 1) (0 : Fin 1) u d) * wD (ix2 d j)) * wO (ix2 j v))
        + bO (ix1 v) := by
  rw [pay_eq, outBlk_apply]
  simp only [hidBlk_apply, encBlk_apply, decBlk_apply]

end Cert.KernelIdeal.Body

end
-- ==== Proof.Spec.lean ====
/-
  The joint network's output as ONE function of the seven argument arrays, entry by entry, on the extended reals.

  For a batch entry `b`, an encoder step `t`, a decoder step `u` and an output unit `v`:
    enc b t j  = (∑ d, h_enc (b, t, 0, d) · W_enc (j, d)) + b_enc j
    dec b u j  =  ∑ d, h_dec (b, 0, u, d) · W_dec (j, d)
    hid b t u j = tanh (enc b t j + dec b u j)
    out (b, t, u, v) = (∑ j, hid b t u j · W_out (v, j)) + b_out v
  with `d` and `j` ranging over the 512 input and joint features. Both programs compute exactly this term: the sums are
  finite sums in the additive commutative monoid of extended reals, in which no order or grouping matters, and the additions
  are associated the same way on both sides, so no law of the extended reals beyond reindexing a sum is used and nothing
  is assumed of the inputs.
-/
import Idealize.ShloMosaic.PureOps.Ideal
import Idealize.ShloMosaic.Lib.ValueIdx

noncomputable section

open scoped BigOperators

namespace Cert.JointSpec

open Idealize.ShloMosaic Idealize.ShloMosaic.ValueIdx

variable (hEnc : FVec Ideal ⟨4, ![8, 256, 1, 512]⟩ .f32) (hDec : FVec Ideal ⟨4, ![8, 1, 64, 512]⟩ .f32)
  (wEnc : FVec Ideal ⟨2, ![512, 512]⟩ .f32) (bEnc : FVec Ideal ⟨1, ![512]⟩ .f32) (wDec : FVec Ideal ⟨2, ![512, 512]⟩ .f32)
  (wOut : FVec Ideal ⟨2, ![1024, 512]⟩ .f32) (bOut : FVec Ideal ⟨1, ![1024]⟩ .f32)

/-- The encoder projection with its bias: row `(b, t)` of `h_enc` against row `j` of `W_enc`, plus `b_enc j`. -/
def enc (b : Fin 8) (t : Fin 256) (j : Fin 512) : EReal :=
  (∑ d : Fin 512, hEnc (ix4 b t (0 : Fin 1) d) * wEnc (ix2 j d)) + bEnc (ix1 j)

/-- The decoder projection (no bias): row `(b, u)` of `h_dec` against row `j` of `W_dec`. -/
def dec (b : Fin 8) (u : Fin 64) (j : Fin 512) : EReal :=
  ∑ d : Fin 512, hDec (ix4 b (0 : Fin 1) u d) * wDec (ix2 j d)

/-- The joint hidden activation: `tanh` of the broadcast sum of the two projections. -/
def hid (b : Fin 8) (t : Fin 256) (u : Fin 64) (j : Fin 512) : EReal :=
  Ideal.tanh (enc hEnc wEnc bEnc b t j + dec hDec wDec b u j)

/-- One output entry: the hidden activations against row `v` of `W_out`, plus `b_out v`. -/
def outAt (b : Fin 8) (t : Fin 256) (u : Fin 64) (v : Fin 1024) : EReal :=
  (∑ j : Fin 512, hid hEnc hDec wEnc bEnc wDec b t u j * wOut (ix2 v j)) + bOut (ix1 v)

/-- The whole output array. -/
def out : FVec Ideal ⟨4, ![8, 256, 64, 1024]⟩ .f32 :=
  fun i => outAt hEnc hDec wEnc bEnc wDec wOut bOut (i 0) (i 1) (i 2) (i 3)

theorem out_ix4 (b : Fin 8) (t : Fin 256) (u : Fin 64) (v : Fin 1024) :
    out hEnc hDec wEnc bEnc wDec wOut bOut (ix4 b t u v) = outAt hEnc hDec wEnc bEnc wDec wOut bOut b t u v := rfl

end Cert.JointSpec

end
-- ==== Proof.KernelValue.lean ====
/-
  The kernel's result array after the run is the specification `JointSpec.out` of its seven arguments.

  The grid has 8 × 16 points; point `t` is batch entry `t / 16` and step tile `t % 16`. At that point the pipeline
  hands the body rows `16 (t % 16) … 16 (t % 16) + 15` of `h_enc`'s batch entry, the whole `h_dec` of that batch entry,
  and the whole of the transposed weights (written by the three host transposes before the region) and of the biases;
  the body's block is written back to rows `16 (t % 16) …` of the result's batch entry `t / 16`. A transposed weight
  read at `(d, j)` is the argument at `(j, d)`, so the body's three products are the specification's three contractions.
  The 128 output blocks tile the result, so the result array is the specification everywhere.
-/
import proofs.«172659_j2052994367587_1_alg».proof.Proof.Gen.KernelIdeal.Value
import proofs.«172659_j2052994367587_1_alg».proof.Proof.Payload
import proofs.«172659_j2052994367587_1_alg».proof.Proof.Spec
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The zero offsets of the body's loads and store -/

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The body loads its seven blocks whole and stores its one result whole: what it leaves in the output buffer is
    its payload of the blocks. -/
theorem out_eq_pay (x0 : Vec Ideal S1x16x1x512 .f32) (x1 : Vec Ideal S1x1x64x512 .f32) (x2 : Vec Ideal S512x512 .f32)
    (x3 : Vec Ideal S512 .f32) (x4 : Vec Ideal S512x512 .f32) (x5 : Vec Ideal S512x1024 .f32) (x6 : Vec Ideal S1024 .f32) :
    out0_7 x0 x1 x2 x3 x4 x5 x6 = k0_pay1 x0 x1 x2 x4 x5 x3 x6 := by
  unfold out0_7
  rw [View.canon_unit_zero hz4]
  simp only [View.ld_unit_zero (S := S1x16x1x512) hz4, View.ld_unit_zero (S := S1x1x64x512) hz4,
    View.ld_unit_zero (S := S512x512) hz2, View.ld_unit_zero (S := S512x1024) hz2,
    View.ld_unit_zero (S := S512) hz1, View.ld_unit_zero (S := S1024) hz1]

/-! ## The transposed weights, as the region finds them -/

theorem V_main_v0 (c : Dev nD) : (V m c main_v0 : S512x512.Idx → EReal)
    = transpose S512x512 [1, 0] (m ((c : Thread nD τ).loc main_arg2)) transposes_S512x512_S512x512_1_0 := by
  dsimp only [V, hostOps0]; after_results

theorem V_main_v1 (c : Dev nD) : (V m c main_v1 : S512x512.Idx → EReal)
    = transpose S512x512 [1, 0] (m ((c : Thread nD τ).loc main_arg4)) transposes_S512x512_S512x512_1_0 := by
  dsimp only [V, hostOps0]; after_results

theorem V_main_v2 (c : Dev nD) : (V m c main_v2 : S512x1024.Idx → EReal)
    = transpose S512x1024 [1, 0] (m ((c : Thread nD τ).loc main_arg5)) transposes_S1024x512_S512x1024_1_0 := by
  dsimp only [V, hostOps0]; after_results

/-! ## The printed index maps over the grid -/

/-- Point `t` is batch entry `t / 16`, step tile `t % 16`: the `h_enc` and result windows move with both, the `h_dec`
    window with the batch entry, the weights and biases stay. -/
theorem idx_facts : ∀ t : Fin cfg0.N,
    win0_0.index t (0 : Fin 4) = t.val / 16 ∧ win0_0.index t (1 : Fin 4) = t.val % 16
    ∧ win0_0.index t (2 : Fin 4) = 0 ∧ win0_0.index t (3 : Fin 4) = 0
    ∧ win0_1.index t (0 : Fin 4) = t.val / 16 ∧ win0_1.index t (1 : Fin 4) = 0
    ∧ win0_1.index t (2 : Fin 4) = 0 ∧ win0_1.index t (3 : Fin 4) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 4) = t.val / 16 ∧ win0_7.index t (1 : Fin 4) = t.val % 16
    ∧ win0_7.index t (2 : Fin 4) = 0 ∧ win0_7.index t (3 : Fin 4) = 0 :=
  (by decide +kernel : ∀ t : Fin grid0.N, _)

/-! ## The blocks the body is handed at a point -/

/-- The `h_enc` block at point `t`: row `p` of the block is step `16 (t % 16) + p` of batch entry `t / 16`. -/
theorem blk_hEnc (c : Dev nD) (t : Fin cfg0.N) (p : Fin 16) (d : Fin 512) (bq : Fin 8) (r : Fin 256)
    (hb : bq.val = t.val / 16) (hr : r.val = t.val % 16 * 16 + p.val) :
    (iblk m c 0 t : Vec Ideal S1x16x1x512 .f32) (ix4 (0 : Fin 1) p (0 : Fin 1) d)
      = (m ((c : Thread nD τ).loc main_arg0) : S8x256x1x512.Idx → EReal) (ix4 bq r (0 : Fin 1) d) := by
  obtain ⟨e0, e1, e2, e3, -⟩ := idx_facts t
  unfold iblk
  rw [View.read_apply]
  show V m c main_arg0 _ = _
  rw [V_main_arg0]
  refine congrArg (m ((c : Thread nD τ).loc main_arg0) : S8x256x1x512.Idx → EReal) (funext fun a => Fin.ext ?_)
  match a with
  | ⟨0, _⟩ => show win0_0.index t (0 : Fin 4) * 1 + 1 * 0 = bq.val; omega
  | ⟨1, _⟩ => show win0_0.index t (1 : Fin 4) * 16 + 1 * p.val = r.val; omega
  | ⟨2, _⟩ => show win0_0.index t (2 : Fin 4) * 1 + 1 * 0 = 0; omega
  | ⟨3, _⟩ => show win0_0.index t (3 : Fin 4) * 512 + 1 * d.val = d.val; omega

/-- The `h_dec` block at point `t`: all of batch entry `t / 16`. -/
theorem blk_hDec (c : Dev nD) (t : Fin cfg0.N) (u : Fin 64) (d : Fin 512) (bq : Fin 8) (hb : bq.val = t.val / 16) :
    (iblk m c 1 t : Vec Ideal S1x1x64x512 .f32) (ix4 (0 : Fin 1) (0 : Fin 1) u d)
      = (m ((c : Thread nD τ).loc main_arg1) : S8x1x64x512.Idx → EReal) (ix4 bq (0 : Fin 1) u d) := by
  obtain ⟨-, -, -, -, e0, e1, e2, e3, -⟩ := idx_facts t
  unfold iblk
  rw [View.read_apply]
  show V m c main_arg1 _ = _
  rw [V_main_arg1]
  refine congrArg (m ((c : Thread nD τ).loc main_arg1) : S8x1x64x512.Idx → EReal) (funext fun a => Fin.ext ?_)
  match a with
  | ⟨0, _⟩ => show win0_1.index t (0 : Fin 4) * 1 + 1 * 0 = bq.val; omega
  | ⟨1, _⟩ => show win0_1.index t (1 : Fin 4) * 1 + 1 * 0 = 0; omega
  | ⟨2, _⟩ => show win0_1.index t (2 : Fin 4) * 64 + 1 * u.val = u.val; omega
  | ⟨3, _⟩ => show win0_1.index t (3 : Fin 4) * 512 + 1 * d.val = d.val; omega

/-- The transposed encoder weight, whole at every point: at `(d, j)` it is `W_enc (j, d)`. -/
theorem blk_wEnc (c : Dev nD) (t : Fin cfg0.N) (d j : Fin 512) :
    (iblk m c 2 t : Vec Ideal S512x512 .f32) (ix2 d j)
      = (m ((c : Thread nD τ).loc main_arg2) : S512x512.Idx → EReal) (ix2 j d) := by
  obtain ⟨-, -, -, -, -, -, -, -, e0, e1, -⟩ := idx_facts t
  unfold iblk
  rw [View.read_apply]
  show V m c main_v0 _ = _
  rw [V_main_v0]
  refine transpose_apply _ _ _ _ (ix2 j d) fun b => ?_
  match b with
  | ⟨0, _⟩ => show d.val = win0_2.index t (0 : Fin 2) * 512 + 1 * d.val; omega
  | ⟨1, _⟩ => show j.val = win0_2.index t (1 : Fin 2) * 512 + 1 * j.val; omega

/-- The encoder bias, whole at every point. -/
theorem blk_bEnc (c : Dev nD) (t : Fin cfg0.N) (j : Fin 512) :
    (iblk m c 3 t : Vec Ideal S512 .f32) (ix1 j) = (m ((c : Thread nD τ).loc main_arg3) : S512.Idx → EReal) (ix1 j) := by
  obtain ⟨-, -, -, -, -, -, -, -, -, -, e0, -⟩ := idx_facts t
  unfold iblk
  rw [View.read_apply]
  show V m c main_arg3 _ = _
  rw [V_main_arg3]
  refine congrArg (m ((c : Thread nD τ).loc main_arg3) : S512.Idx → EReal) (funext fun a => Fin.ext ?_)
  match a with
  | ⟨0, _⟩ => show win0_3.index t (0 : Fin 1) * 512 + 1 * j.val = j.val; omega

/-- The transposed decoder weight, whole at every point: at `(d, j)` it is `W_dec (j, d)`. -/
theorem blk_wDec (c : Dev nD) (t : Fin cfg0.N) (d j : Fin 512) :
    (iblk m c 4 t : Vec Ideal S512x512 .f32) (ix2 d j)
      = (m ((c : Thread nD τ).loc main_arg4) : S512x512.Idx → EReal) (ix2 j d) := by
  obtain ⟨-, -, -, -, -, -, -, -, -, -, -, e0, e1, -⟩ := idx_facts t
  unfold iblk
  rw [View.read_apply]
  show V m c main_v1 _ = _
  rw [V_main_v1]
  refine transpose_apply _ _ _ _ (ix2 j d) fun b => ?_
  match b with
  | ⟨0, _⟩ => show d.val = win0_4.index t (0 : Fin 2) * 512 + 1 * d.val; omega
  | ⟨1, _⟩ => show j.val = win0_4.index t (1 : Fin 2) * 512 + 1 * j.val; omega

/-- The transposed output weight, whole at every point: at `(j, v)` it is `W_out (v, j)`. -/
theorem blk_wOut (c : Dev nD) (t : Fin cfg0.N) (j : Fin 512) (v : Fin 1024) :
    (iblk m c 5 t : Vec Ideal S512x1024 .f32) (ix2 j v)
      = (m ((c : Thread nD τ).loc main_arg5) : S1024x512.Idx → EReal) (ix2 v j) := by
  obtain ⟨-, -, -, -, -, -, -, -, -, -, -, -, -, e0, e1, -⟩ := idx_facts t
  unfold iblk
  rw [View.read_apply]
  show V m c main_v2 _ = _
  rw [V_main_v2]
  refine transpose_apply _ _ _ _ (ix2 v j) fun b => ?_
  match b with
  | ⟨0, _⟩ => show j.val = win0_5.index t (0 : Fin 2) * 512 + 1 * j.val; omega
  | ⟨1, _⟩ => show v.val = win0_5.index t (1 : Fin 2) * 1024 + 1 * v.val; omega

/-- The output bias, whole at every point. -/
theorem blk_bOut (c : Dev nD) (t : Fin cfg0.N) (v : Fin 1024) :
    (iblk m c 6 t : Vec Ideal S1024 .f32) (ix1 v) = (m ((c : Thread nD τ).loc main_arg6) : S1024.Idx → EReal) (ix1 v) := by
  obtain ⟨-, -, -, -, -, -, -, -, -, -, -, -, -, -, -, e0, -⟩ := idx_facts t
  unfold iblk
  rw [View.read_apply]
  show V m c main_arg6 _ = _
  rw [V_main_arg6]
  refine congrArg (m ((c : Thread nD τ).loc main_arg6) : S1024.Idx → EReal) (funext fun a => Fin.ext ?_)
  match a with
  | ⟨0, _⟩ => show win0_6.index t (0 : Fin 1) * 1024 + 1 * v.val = v.val; omega

/-! ## What a point writes back -/

/-- The specification of the launch contents of the seven arguments. -/
abbrev spec (c : Dev nD) : FVec Ideal S8x256x64x1024 .f32 :=
  JointSpec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The body's payload of point `t`'s blocks, at a block entry `y`, is the specification at the result entry `i` that
    `y` is written to: batch entry `t / 16`, step `16 (t % 16) + y 1`, the same decoder step and output unit. -/
theorem point_eq (c : Dev nD) (t : Fin cfg0.N) (y : S1x16x64x1024.Idx) (i : S8x256x64x1024.Idx)
    (h0 : (i 0).val = t.val / 16) (h1 : (i 1).val = t.val % 16 * 16 + (y 1).val)
    (h2 : (i 2).val = (y 2).val) (h3 : (i 3).val = (y 3).val) :
    k0_pay1 (F := Ideal) (iblk m c 0 t) (iblk m c 1 t) (iblk m c 2 t) (iblk m c 4 t) (iblk m c 5 t) (iblk m c 3 t)
      (iblk m c 6 t) y = spec m c i := by
  obtain ⟨z, p, u, v, rfl⟩ : ∃ (z : Fin 1) (p : Fin 16) (u : Fin 64) (v : Fin 1024), y = ix4 z p u v :=
    ⟨y 0, y 1, y 2, y 3, eq_ix4 y⟩
  obtain ⟨bq, r, u', v', rfl⟩ : ∃ (bq : Fin 8) (r : Fin 256) (u' : Fin 64) (v' : Fin 1024), i = ix4 bq r u' v' :=
    ⟨i 0, i 1, i 2, i 3, eq_ix4 i⟩
  obtain rfl : z = 0 := Subsingleton.elim _ _
  obtain rfl : u' = u := Fin.ext h2
  obtain rfl : v' = v := Fin.ext h3
  have hb : bq.val = t.val / 16 := h0
  have hr : r.val = t.val % 16 * 16 + p.val := h1
  refine (Body.pay_apply (iblk m c 0 t) (iblk m c 1 t) (iblk m c 2 t) (iblk m c 4 t) (iblk m c 5 t) (iblk m c 3 t)
    (iblk m c 6 t) p u' v').trans ?_
  show _ = JointSpec.outAt _ _ _ _ _ _ _ bq r u' v'
  unfold JointSpec.outAt JointSpec.hid JointSpec.enc JointSpec.dec
  refine congrArg₂ (· + ·) (Finset.sum_congr rfl fun j _ => congrArg₂ (· * ·) (congrArg Ideal.tanh
    (congrArg₂ (· + ·) (congrArg₂ (· + ·) (Finset.sum_congr rfl fun d _ => congrArg₂ (· * ·) ?_ ?_) ?_)
      (Finset.sum_congr rfl fun d _ => congrArg₂ (· * ·) ?_ ?_))) ?_) ?_
  · exact blk_hEnc m c t p d bq r hb hr
  · exact blk_wEnc m c t d j
  · exact blk_bEnc m c t j
  · exact blk_hDec m c t u' d bq hb
  · exact blk_wDec m c t d j
  · exact blk_wOut m c t j v'
  · exact blk_bOut m c t v'

/-- What point `t` writes back is block `t` of the specification. -/
theorem flushed_eq (c : Dev nD) (t : Fin cfg0.N) :
    (dats m 0 c).flushed 7 t = ((cfg0.win 7).blk t).view.read (Elt Ideal) (spec m c) := by
  obtain ⟨-, -, -, -, -, -, -, -, -, -, -, -, -, -, -, -, e0, e1, e2, e3⟩ := idx_facts t
  rw [Value.flushed7, out_eq_pay]
  funext y
  rw [View.read_apply]
  refine point_eq m c t _ _ ?_ ?_ ?_ ?_
  · show win0_7.index t (0 : Fin 4) * 1 + 1 * (y 0).val = t.val / 16
    have : (y 0).val < 1 := (y 0).isLt
    omega
  · show win0_7.index t (1 : Fin 4) * 16 + 1 * (y 1).val = t.val % 16 * 16 + (y 1).val
    omega
  · show win0_7.index t (2 : Fin 4) * 64 + 1 * (y 2).val = (y 2).val
    omega
  · show win0_7.index t (3 : Fin 4) * 1024 + 1 * (y 3).val = (y 3).val
    omega

/-! ## The blocks tile the result -/

/-- An entry of the result is in point `t`'s block iff each coordinate is in the block's range on its axis. -/
theorem mem_blk (t : Fin cfg0.N) (i : S8x256x64x1024.Idx) :
    i ∈ ((cfg0.win 7).blk t).view.set ↔ ∀ a : Fin 4, win0_7.index t a * S1x16x64x1024.size a ≤ (i a).val
      ∧ (i a).val < win0_7.index t a * S1x16x64x1024.size a + S1x16x64x1024.size a := by
  show i ∈ ((View.whole main_v3).slice (win0_7.rect t)).set ↔ _
  rw [View.set_slice_whole, Rect.mem_set_unit]
  exact Iff.rfl

/-- Entry `(b, s, u, v)` is in the block of point `16 b + s / 16`. -/
theorem cover (i : S8x256x64x1024.Idx) :
    ∃ t : Fin cfg0.N, (cfg0.win 7).flush t = true ∧ i ∈ ((cfg0.win 7).blk t).view.set := by
  have h0 : (i 0).val < 8 := (i 0).isLt
  have h1 : (i 1).val < 256 := (i 1).isLt
  have h2 : (i 2).val < 64 := (i 2).isLt
  have h3 : (i 3).val < 1024 := (i 3).isLt
  have hN : cfg0.N = 128 := N_0
  obtain ⟨t, ht⟩ : ∃ t : Fin cfg0.N, t.val = (i 0).val * 16 + (i 1).val / 16 :=
    ⟨⟨(i 0).val * 16 + (i 1).val / 16, by rw [hN]; omega⟩, rfl⟩
  obtain ⟨-, -, -, -, -, -, -, -, -, -, -, -, -, -, -, -, e0, e1, e2, e3⟩ := idx_facts t
  refine ⟨t, flush0_7 t, ?_⟩
  rw [mem_blk]
  intro a
  match a with
  | ⟨0, _⟩ =>
    show win0_7.index t (0 : Fin 4) * 1 ≤ (i 0).val ∧ (i 0).val < win0_7.index t (0 : Fin 4) * 1 + 1
    omega
  | ⟨1, _⟩ =>
    show win0_7.index t (1 : Fin 4) * 16 ≤ (i 1).val ∧ (i 1).val < win0_7.index t (1 : Fin 4) * 16 + 16
    omega
  | ⟨2, _⟩ =>
    show win0_7.index t (2 : Fin 4) * 64 ≤ (i 2).val ∧ (i 2).val < win0_7.index t (2 : Fin 4) * 64 + 64
    omega
  | ⟨3, _⟩ =>
    show win0_7.index t (3 : Fin 4) * 1024 ≤ (i 3).val ∧ (i 3).val < win0_7.index t (3 : Fin 4) * 1024 + 1024
    omega

/-- The result array after the run is the specification. -/
theorem final (c : Dev nD) : (dats m 0 c).arrAt 7 cfg0.N = spec m c :=
  (dats m 0 c).arrAt_eq_of_cover 7 (spec m c) (fun t _ => flushed_eq m c t) cover

/-! ## The run, read -/

/-- Every weakly fair execution of the kernel program terminates with the result array at the specification of the
    arguments and the arguments unchanged. -/
theorem run : θ_run defs (onTc (τ := τ) (main (F := Ideal))) ⟨m, fun _ => 0, ρ⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.KValue

end
-- ==== Proof.RefSpec.lean ====
/-
  The reference's result, read entry by entry, is the specification `JointSpec.out` of its seven arguments.

  The reference projects before it broadcasts: `e = einsum(h_enc, W_enc) + b_enc` over `[8, 256, 1, 512]`,
  `d = einsum(h_dec, W_dec)` over `[8, 1, 64, 512]`, both broadcast to `[8, 256, 64, 512]`, `tanh` of their sum, and the
  last contraction against `W_out` plus the broadcast `b_out`. Read at the entry `(b, t, u, v)`: a broadcast reads
  coordinate `0` on the unit axis, each contraction is the sum over its 512 positions of the products of the
  operands' entries, and the host's `tanh` is the extended reals' `tanh`. The only work is to name the operand indices
  by their coordinates.
-/
import proofs.«172659_j2052994367587_1_alg».proof.Proof.Gen.ReferenceIdeal.Read
import proofs.«172659_j2052994367587_1_alg».proof.Proof.Spec

noncomputable section

open scoped BigOperators

namespace Cert.ReferenceIdeal.RefValue

open Cert.ReferenceIdeal Cert.ReferenceIdeal.Read Idealize.ShloMosaic Idealize.ShloMosaic.ValueIdx

/-! ## The operand indices, by coordinates -/

/-- The encoder contraction's left index under the broadcast over `u`: `(b, t, 0, k)`. -/
theorem enc_lidx (b : Fin 8) (t : Fin 256) (u : Fin 64) (j k : Fin 512) :
    lidx_main_v0 (idx_main_v5 (ix4 b t u j)) k = ix4 b t (0 : Fin 1) k :=
  funext fun a => Fin.ext (by match a with | ⟨0, _⟩ => rfl | ⟨1, _⟩ => rfl | ⟨2, _⟩ => rfl | ⟨3, _⟩ => rfl)

/-- Its right index: row `j` of `W_enc` at `k`. -/
theorem enc_ridx (b : Fin 8) (t : Fin 256) (u : Fin 64) (j k : Fin 512) :
    ridx_main_v0 (idx_main_v5 (ix4 b t u j)) k = ix2 j k :=
  funext fun a => Fin.ext (by match a with | ⟨0, _⟩ => rfl | ⟨1, _⟩ => rfl)

/-- The encoder bias under its two broadcasts: `b_enc j`. -/
theorem enc_bidx (b : Fin 8) (t : Fin 256) (u : Fin 64) (j : Fin 512) :
    idx_main_v1 (idx_main_v2 (idx_main_v5 (ix4 b t u j))) = ix1 j :=
  funext fun a => Fin.ext (by match a with | ⟨0, _⟩ => rfl)

/-- The decoder contraction's left index under the broadcast over `t`: `(b, 0, u, k)`. -/
theorem dec_lidx (b : Fin 8) (t : Fin 256) (u : Fin 64) (j k : Fin 512) :
    lidx_main_v4 (idx_main_v6 (ix4 b t u j)) k = ix4 b (0 : Fin 1) u k :=
  funext fun a => Fin.ext (by match a with | ⟨0, _⟩ => rfl | ⟨1, _⟩ => rfl | ⟨2, _⟩ => rfl | ⟨3, _⟩ => rfl)

/-- Its right index: row `j` of `W_dec` at `k`. -/
theorem dec_ridx (b : Fin 8) (t : Fin 256) (u : Fin 64) (j k : Fin 512) :
    ridx_main_v4 (idx_main_v6 (ix4 b t u j)) k = ix2 j k :=
  funext fun a => Fin.ext (by match a with | ⟨0, _⟩ => rfl | ⟨1, _⟩ => rfl)

/-- The output contraction's left index: the hidden activation at `(b, t, u, k)`. -/
theorem out_lidx (b : Fin 8) (t : Fin 256) (u : Fin 64) (v : Fin 1024) (k : Fin 512) :
    lidx_main_v9 (ix4 b t u v) k = ix4 b t u k :=
  funext fun a => Fin.ext (by match a with | ⟨0, _⟩ => rfl | ⟨1, _⟩ => rfl | ⟨2, _⟩ => rfl | ⟨3, _⟩ => rfl)

/-- Its right index: row `v` of `W_out` at `k`. -/
theorem out_ridx (b : Fin 8) (t : Fin 256) (u : Fin 64) (v : Fin 1024) (k : Fin 512) :
    ridx_main_v9 (ix4 b t u v) k = ix2 v k :=
  funext fun a => Fin.ext (by match a with | ⟨0, _⟩ => rfl | ⟨1, _⟩ => rfl)

/-- The output bias under its two broadcasts: `b_out v`. -/
theorem out_bidx (b : Fin 8) (t : Fin 256) (u : Fin 64) (v : Fin 1024) :
    idx_main_v10 (idx_main_v11 (ix4 b t u v)) = ix1 v :=
  funext fun a => Fin.ext (by match a with | ⟨0, _⟩ => rfl)

/-! ## The stages -/

variable (x0 : FVec Ideal S8x256x1x512 .f32) (x1 : FVec Ideal S8x1x64x512 .f32) (x2 : FVec Ideal S512x512 .f32)
  (x3 : FVec Ideal S512 .f32) (x4 : FVec Ideal S512x512 .f32) (x5 : FVec Ideal S1024x512 .f32) (x6 : FVec Ideal S1024 .f32)

/-- The reference's `tanh` stage at `(b, t, u, j)` is the specification's hidden activation. -/
theorem hidden_eq (b : Fin 8) (t : Fin 256) (u : Fin 64) (j : Fin 512) :
    val_main_v8 (F := Ideal) x0 x1 x2 x3 x4 (ix4 b t u j) = JointSpec.hid x0 x1 x2 x3 x4 b t u j := by
  rw [val_main_v8_apply, val_main_v7_apply, val_main_v5_apply, val_main_v6_apply, val_main_v3_apply, val_main_v0_apply,
    val_main_v2_apply, val_main_v1_apply, val_main_v4_apply]
  simp only [enc_lidx, enc_ridx, enc_bidx, dec_lidx, dec_ridx]
  rfl

/-- The reference's result is the specification of its arguments. -/
theorem result_eq : val_main_v12 (F := Ideal) x0 x1 x2 x3 x4 x5 x6 = JointSpec.out x0 x1 x2 x3 x4 x5 x6 := by
  funext i
  obtain ⟨b, t, u, v, rfl⟩ : ∃ (b : Fin 8) (t : Fin 256) (u : Fin 64) (v : Fin 1024), i = ix4 b t u v :=
    ⟨i 0, i 1, i 2, i 3, eq_ix4 i⟩
  rw [JointSpec.out_ix4, val_main_v12_apply, val_main_v9_apply, val_main_v11_apply, val_main_v10_apply]
  simp only [out_lidx, out_ridx, out_bidx, hidden_eq]
  rfl

end Cert.ReferenceIdeal.RefValue

end
-- ==== Proof.lean ====
/-
  The joint network of a transducer: `out = tanh (h_enc · W_encᵀ + b_enc ⊕ h_dec · W_decᵀ) · W_outᵀ + b_out`, the two
  projections broadcast against each other over the encoder steps and the decoder steps.

  The kernel tiles the encoder steps by sixteen over an 8 × 16 grid and, at each point, computes the block of the
  result for one batch entry and sixteen encoder steps from blocks of the inputs and the weights transposed beforehand
  on the host; the reference computes the whole array with three contractions and two broadcasts. On the extended reals
  both results are, entry by entry, the one function `JointSpec.out` of the seven argument arrays (Proof/Spec.lean):
  the kernel's by the body's stages read at an entry (Proof/Payload.lean) over the blocks a point is handed and the
  tiling of the result by the 128 written blocks (Proof/KernelValue.lean), the reference's by its operations read at an
  entry (Proof/RefSpec.lean). Every contraction is a finite sum of products indexed the same way on both sides, and
  the additions are associated alike, so the two terms coincide without any algebraic law and the finiteness of the
  inputs is not used. The idealization rewrote nothing, so `preserves` is trivial; each kernel program's frame is its
  generated frame, and the reference's is its generated run with the result dropped.
-/
import proofs.«172659_j2052994367587_1_alg».proof.Defs
import proofs.«172659_j2052994367587_1_alg».proof.Proof.Gen.Kernel
import proofs.«172659_j2052994367587_1_alg».proof.Proof.Gen.Kernel.Skeleton
import proofs.«172659_j2052994367587_1_alg».proof.Proof.Gen.Kernel.Launch
import proofs.«172659_j2052994367587_1_alg».proof.Proof.Gen.Kernel.Points
import proofs.«172659_j2052994367587_1_alg».proof.Proof.Gen.Kernel.Frame
import proofs.«172659_j2052994367587_1_alg».proof.Proof.Gen.KernelIdeal
import proofs.«172659_j2052994367587_1_alg».proof.Proof.Gen.KernelIdeal.Skeleton
import proofs.«172659_j2052994367587_1_alg».proof.Proof.Gen.KernelIdeal.Launch
import proofs.«172659_j2052994367587_1_alg».proof.Proof.Gen.KernelIdeal.Points
import proofs.«172659_j2052994367587_1_alg».proof.Proof.Gen.KernelIdeal.Frame
import proofs.«172659_j2052994367587_1_alg».proof.Proof.Gen.ReferenceIdeal
import proofs.«172659_j2052994367587_1_alg».proof.Proof.Gen.Pre_finite_inputs
import proofs.«172659_j2052994367587_1_alg».proof.Proof.Gen.KernelIdeal.Value
import proofs.«172659_j2052994367587_1_alg».proof.Proof.Gen.ReferenceIdeal.Run
import proofs.«172659_j2052994367587_1_alg».proof.Proof.Gen.ReferenceIdeal.Read
import proofs.«172659_j2052994367587_1_alg».proof.Proof.KernelValue
import proofs.«172659_j2052994367587_1_alg».proof.Proof.RefSpec
import Idealize.ShloMosaic.Adequacy
import Idealize.ShloMosaic.Init

noncomputable section

namespace Cert.Proof

open Idealize.ShloMosaic Idealize.SL.Sem

/-- The word-level kernel program runs and leaves its arguments as they were. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the seven arguments both programs end with the result array at `JointSpec.out` of the
    arguments: the kernel by `KValue.run`, the reference by its run read entry by entry. -/
theorem algebraic : Cert.algebraic_KernelIdeal_ReferenceIdeal := by
  intro m ρ m' ρ' _ hagree
  refine ⟨fun c => Cert.KernelIdeal.KValue.spec m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
